-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2048x4096 .f32) (main_arg1 : FVec F S4096x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S2048x4096 : Shape := ⟨2, ![2048, 4096]⟩
abbrev S4096x4096 : Shape := ⟨2, ![4096, 4096]⟩
abbrev S256x4096 : Shape := ⟨2, ![256, 4096]⟩
abbrev S4096x512 : Shape := ⟨2, ![4096, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S4096x512, .f32⟩
  | .local _ .vmem, ⟨3, _⟩ => ⟨S4096x512, .f32⟩
  | .local _ .vmem, ⟨4, _⟩ => ⟨S256x512, .f32⟩
  | .local _ .vmem, ⟨5, _⟩ => ⟨S256x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S256x512_S256x512_0_0 : ∀ a, (![0, 0] : Fin 2 → Nat) a + S256x512.size a ≤ S256x512.size a
  h_S256x512 : 0 < S256x512.numel
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x4096.size a
  hwx0_2 : ∀ i : grid0.Coords, EltTy.bits .f32 = 32 ∨ (Rect.block (s := S2048x4096) S256x512.size (cc0_transform_2 i) (hinb0_2 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Product.lean ====
/-
  The matrix product this certificate is about, as ONE function of the two argument arrays.

  For a 2048 × 4096 array `a` (the batch of state vectors, one per row) and a 4096 × 4096 array `b` (the gate's
  matrix), entry (r, c) of the product is the sum over the 4096 contraction positions k of a(r, k) · b(k, c), taken
  in the extended reals. Nothing about the entries is assumed: a sum of extended reals over a finite index set does
  not depend on the order or grouping of its terms (addition there is commutative and associative), and both
  programs below form exactly this sum for every entry, so no finiteness of the inputs is ever used.
-/
import Idealize.ShloMosaic.PureOps.Ideal
import Idealize.ShloMosaic.Lib.ValueIdx

noncomputable section

namespace Cert.StateProduct

open Idealize.ShloMosaic Idealize.ShloMosaic.ValueIdx

/-- Entry `i = (r, c)` of the product of `a` (2048 × 4096) with `b` (4096 × 4096): row `r` of `a` against column `c`
    of `b`, summed over the 4096 contraction positions. -/
def product (a : (⟨2, ![2048, 4096]⟩ : Shape).Idx → EReal) (b : (⟨2, ![4096, 4096]⟩ : Shape).Idx → EReal) :
    (⟨2, ![2048, 4096]⟩ : Shape).Idx → EReal :=
  fun i => ∑ k : Fin 4096, a (ix2 (i 0) k) * b (ix2 k (i 1))

/-- The product at an entry given by its two coordinates. -/
theorem product_apply (a : (⟨2, ![2048, 4096]⟩ : Shape).Idx → EReal) (b : (⟨2, ![4096, 4096]⟩ : Shape).Idx → EReal)
    (r : Fin 2048) (c : Fin 4096) :
    product a b (ix2 r c) = ∑ k : Fin 4096, a (ix2 r k) * b (ix2 k c) := rfl

end Cert.StateProduct

end
-- ==== Proof.ReferenceProduct.lean ====
/-
  The reference computes the product.

  The reference is one `dot_general` contracting axis 1 of its first argument with axis 0 of its second. Read at an
  entry (r, c) in the extended reals it is the sum over k of (first argument at (r, k)) · (second argument at (k, c)):
  the generated read-at-an-index lemma says so with the two operand positions written coordinate by coordinate, and
  those positions are the pairs (r, k) and (k, c) of the product's definition.
-/
import proofs.«150564_j31662498906411_1_alg».proof.Proof.Gen.ReferenceIdeal.Read
import proofs.«150564_j31662498906411_1_alg».proof.Proof.Product

noncomputable section

namespace Cert.ReferenceIdeal.RefProduct

open Cert.ReferenceIdeal Idealize.ShloMosaic Idealize.ShloMosaic.ValueIdx Cert.StateProduct

/-- The left operand's position for entry `i` and contraction position `k` is (row of `i`, `k`). -/
theorem left_position (i : S2048x4096.Idx) (k : Fin 4096) : Read.lidx_main_v0 i k = ix2 (i 0) k :=
  funext fun a => Fin.ext (by match a with | ⟨0, _⟩ => rfl | ⟨1, _⟩ => rfl)

/-- The right operand's position for entry `i` and contraction position `k` is (`k`, column of `i`). -/
theorem right_position (i : S2048x4096.Idx) (k : Fin 4096) : Read.ridx_main_v0 i k = ix2 k (i 1) :=
  funext fun a => Fin.ext (by match a with | ⟨0, _⟩ => rfl | ⟨1, _⟩ => rfl)

/-- The reference's result, as a function of its two arguments, is their product. -/
theorem reference_eq_product (x0 : (⟨S2048x4096, .f32⟩ : BufTy).Contents (Elt Ideal)) (x1 : (⟨S4096x4096, .f32⟩ : BufTy).Contents (Elt Ideal)) :
    Read.val_main_v0 (F := Ideal) x0 x1 = product x0 x1 := by
  funext i
  rw [Read.val_main_v0_apply]
  refine Finset.sum_congr rfl fun k _ => ?_
  rw [left_position, right_position]
  rfl

end Cert.ReferenceIdeal.RefProduct

end
-- ==== Proof.TileProduct.lean ====
/-
  One tile of the kernel's body computes a tile of a product.

  At a grid point the body loads a 256 × 4096 block `x0` of the first argument and a 4096 × 512 block `x1` of the
  second, changes both to bf16 (the identity on extended reals), multiplies them into a zero accumulator and stores
  the 256 × 512 result. Entry (p, q) of what it stores is therefore the sum over the 4096 contraction positions k of
  x0(p, k) · x1(k, q): the zero accumulator adds nothing, and the contraction's one axis is the index set Fin 4096.
-/
import proofs.«150564_j31662498906411_1_alg».proof.Proof.Gen.KernelIdeal.Skeleton
import Idealize.ShloMosaic.Lib.ValueIdx
import Idealize.ShloMosaic.PureOps.Ideal.Laws
import proofs.«150564_j31662498906411_1_alg».proof.Proof.Product

noncomputable section

namespace Cert.KernelIdeal.TileProduct

open Cert.KernelIdeal Cert.KernelIdeal.Gen Idealize.ShloMosaic Idealize.ShloMosaic.ValueIdx Cert.StateProduct

/-- Row coordinate of the left operand's position: the row of the output entry. -/
theorem left_row (j : S256x512.Idx) (q : dot_S256x4096_S4096x512_S256x512_1_0_0_1_n_n.contr.Idx) :
    (dot_S256x4096_S4096x512_S256x512_1_0_0_1_n_n.lhsIdx j q 0).val = (j 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl

/-- Column coordinate of the left operand's position: the contraction position. -/
theorem left_col (j : S256x512.Idx) (q : dot_S256x4096_S4096x512_S256x512_1_0_0_1_n_n.contr.Idx) :
    (dot_S256x4096_S4096x512_S256x512_1_0_0_1_n_n.lhsIdx j q 1).val = (q ⟨0, by decide⟩).val :=
  dot_S256x4096_S4096x512_S256x512_1_0_0_1_n_n.lhsIdx_val_of_single rfl j q

/-- Row coordinate of the right operand's position: the contraction position. -/
theorem right_row (j : S256x512.Idx) (q : dot_S256x4096_S4096x512_S256x512_1_0_0_1_n_n.contr.Idx) :
    (dot_S256x4096_S4096x512_S256x512_1_0_0_1_n_n.rhsIdx j q 0).val = (q ⟨0, by decide⟩).val :=
  dot_S256x4096_S4096x512_S256x512_1_0_0_1_n_n.rhsIdx_val_of_single rfl j q

/-- Column coordinate of the right operand's position: the column of the output entry. -/
theorem right_col (j : S256x512.Idx) (q : dot_S256x4096_S4096x512_S256x512_1_0_0_1_n_n.contr.Idx) :
    (dot_S256x4096_S4096x512_S256x512_1_0_0_1_n_n.rhsIdx j q 1).val = (j 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- Entry (p, q) of the stored tile: row `p` of the left block against column `q` of the right block. -/
theorem tile_entry (x0 : Vec Ideal S256x4096 .f32) (x1 : Vec Ideal S4096x512 .f32) (p : Fin 256) (q : Fin 512) :
    k0_pay1 (F := Ideal) x0 x1 (ix2 p q) = ∑ k : Fin 4096, x0 (ix2 p k) * x1 (ix2 k q) := by
  unfold k0_pay1
  refine (Ideal.matmul_constant_zero_apply dot_S256x4096_S4096x512_S256x512_1_0_0_1_n_n none _ _ (ix2 p q)).trans ?_
  rw [← Equiv.sum_comp (ValueIdx.contrEquiv1 dot_S256x4096_S4096x512_S256x512_1_0_0_1_n_n 4096 rfl rfl).symm]
  refine Finset.sum_congr rfl fun k _ => ?_
  have hk := ValueIdx.contrEquiv1_symm_val dot_S256x4096_S4096x512_S256x512_1_0_0_1_n_n 4096 rfl rfl k
  have el : dot_S256x4096_S4096x512_S256x512_1_0_0_1_n_n.lhsIdx (ix2 p q) ((ValueIdx.contrEquiv1 dot_S256x4096_S4096x512_S256x512_1_0_0_1_n_n 4096 rfl rfl).symm k) = ix2 p k := funext fun a => Fin.ext (by
    match a with
    | ⟨0, _⟩ => exact left_row _ _
    | ⟨1, _⟩ => exact (left_col _ _).trans hk)
  have er : dot_S256x4096_S4096x512_S256x512_1_0_0_1_n_n.rhsIdx (ix2 p q) ((ValueIdx.contrEquiv1 dot_S256x4096_S4096x512_S256x512_1_0_0_1_n_n 4096 rfl rfl).symm k) = ix2 k q := funext fun a => Fin.ext (by
    match a with
    | ⟨0, _⟩ => exact (right_row _ _).trans hk
    | ⟨1, _⟩ => exact right_col _ _)
  rw [el, er]
  rfl

/-- A stored tile is a tile of the product of two arrays `a`, `b` as soon as the loaded blocks are the matching
    pieces of them: if row `p` of the left block is row `r` of `a` and column `q` of the right block is column `c` of
    `b`, then entry (p, q) of the tile is entry (r, c) of the product. The entries are given by their coordinates
    (`hy`, `hi`), so that every coordinate has a literal range. -/
theorem tile_of_product (a : S2048x4096.Idx → EReal) (b : S4096x4096.Idx → EReal)
    (x0 : Vec Ideal S256x4096 .f32) (x1 : Vec Ideal S4096x512 .f32) (y : S256x512.Idx) (i : S2048x4096.Idx)
    (p : Fin 256) (q : Fin 512) (r : Fin 2048) (c : Fin 4096) (hy : y = ix2 p q) (hi : i = ix2 r c)
    (h0 : ∀ k : Fin 4096, x0 (ix2 p k) = a (ix2 r k))
    (h1 : ∀ k : Fin 4096, x1 (ix2 k q) = b (ix2 k c)) :
    k0_pay1 (F := Ideal) x0 x1 y = product a b i := by
  subst hy hi
  rw [tile_entry, product_apply]
  exact Finset.sum_congr rfl fun k _ => by rw [h0 k, h1 k]

end Cert.KernelIdeal.TileProduct

end
-- ==== Proof.Tiles.lean ====
/-
  From tiles to the whole array.

  The grid has 8 × 8 points. Point (I, J) loads rows 256·I … 256·I + 255 of the first argument (all 4096 columns)
  and columns 512·J … 512·J + 511 of the second (all 4096 rows), and writes back the 256 × 512 tile of the result
  with top-left corner (256·I, 512·J). So what a point writes back is exactly that tile of the product of the two
  whole arrays: entry (p, q) of the tile is row 256·I + p against column 512·J + q. The 64 tiles cover the
  2048 × 4096 result — entry (r, c) lies in the tile of the point (r / 256, c / 512) — hence after the run the result
  array is the product, entry by entry.
-/
import proofs.«150564_j31662498906411_1_alg».proof.Proof.Gen.KernelIdeal.Value
import proofs.«150564_j31662498906411_1_alg».proof.Proof.Product
import proofs.«150564_j31662498906411_1_alg».proof.Proof.TileProduct

noncomputable section

namespace Cert.KernelIdeal.Tiles

open Cert.KernelIdeal Cert.KernelIdeal.Gen Idealize.ShloMosaic Idealize.ShloMosaic.TcCoe Idealize.SL.Sem
open Idealize.ShloMosaic.ValueIdx Cert.StateProduct
open Idealize.ShloMosaic.Pipeline (Dat)

variable (m : (ℓ : Loc nD τ sig) → Buf (Elt Ideal) ℓ) (ρ : Dev nD → PrngReg)

/-- The body's loads and its store start at the corner of their buffers. -/
theorem corner : (![0, 0] : Fin 2 → Nat) = fun _ => 0 := funext fun a => by fin_cases a <;> rfl

/-- Where the three windows sit at a grid point, decided over the 64 points: the first argument's block shares its
    row-block with the result's tile and spans all columns; the second argument's block spans all rows and shares
    its column-block with the tile; the tile's block coordinates are below 8 on both axes. -/
theorem positions : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 7 :=
  (by decide +kernel : ∀ t : Fin grid0.N, _)

/-- Every one of the 8 × 8 tiles is some grid point's. -/
theorem every_tile : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- What point `t` writes back is its tile of the product of the two argument arrays. -/
theorem flushed_eq_product (c : Dev nD) (t : Fin cfg0.N) :
    (dats m 0 c).flushed 2 t
      = ((cfg0.win 2).blk t).view.read (Elt Ideal) (product (V m c main_arg0) (V m c main_arg1)) := by
  rw [Value.flushed2]
  unfold out0_2
  rw [View.canon_unit_zero corner]
  simp only [View.ld_unit_zero (S := S256x4096) corner, View.ld_unit_zero (S := S4096x512) corner]
  obtain ⟨e0, e1, e2, e3, b0, b1⟩ := positions t
  funext j
  show k0_pay1 (F := Ideal) (iblk m c 0 t) (iblk m c 1 t) j
    = product (V m c main_arg0) (V m c main_arg1) (((cfg0.win 2).blk t).view.emb j)
  have hp : (j 0).val < 256 := (j 0).isLt
  have hq : (j 1).val < 512 := (j 1).isLt
  refine TileProduct.tile_of_product _ _ _ _ j _ ⟨(j 0).val, hp⟩ ⟨(j 1).val, hq⟩
    ⟨win0_2.index t (0 : Fin 2) * 256 + (j 0).val, by omega⟩ ⟨win0_2.index t (1 : Fin 2) * 512 + (j 1).val, by omega⟩ ?_ ?_ ?_ ?_
  · funext a; match a with | ⟨0, _⟩ => rfl | ⟨1, _⟩ => rfl
  · funext a; apply Fin.ext
    match a with
    | ⟨0, _⟩ => show win0_2.index t (0 : Fin 2) * 256 + 1 * (j 0).val = win0_2.index t (0 : Fin 2) * 256 + (j 0).val; omega
    | ⟨1, _⟩ => show win0_2.index t (1 : Fin 2) * 512 + 1 * (j 1).val = win0_2.index t (1 : Fin 2) * 512 + (j 1).val; omega
  · intro k
    show V m c main_arg0 (((cfg0.win 0).blk t).view.emb (ix2 ⟨(j 0).val, hp⟩ k)) = V m c main_arg0 _
    refine congrArg (V m c main_arg0) ?_
    funext a; apply Fin.ext
    match a with
    | ⟨0, _⟩ => show win0_0.index t (0 : Fin 2) * 256 + 1 * (j 0).val = win0_2.index t (0 : Fin 2) * 256 + (j 0).val; omega
    | ⟨1, _⟩ => show win0_0.index t (1 : Fin 2) * 4096 + 1 * k.val = k.val; omega
  · intro k
    show V m c main_arg1 (((cfg0.win 1).blk t).view.emb (ix2 k ⟨(j 1).val, hq⟩)) = V m c main_arg1 _
    refine congrArg (V m c main_arg1) ?_
    funext a; apply Fin.ext
    match a with
    | ⟨0, _⟩ => show win0_1.index t (0 : Fin 2) * 4096 + 1 * k.val = k.val; omega
    | ⟨1, _⟩ => show win0_1.index t (1 : Fin 2) * 512 + 1 * (j 1).val = win0_2.index t (1 : Fin 2) * 512 + (j 1).val; omega

/-- An entry of the result array is in point `t`'s tile iff each coordinate is in the tile's range on its axis. -/
theorem mem_tile (t : Fin cfg0.N) (i : S2048x4096.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v0).slice (win0_2.rect t)).set ↔ _
  rw [View.set_slice_whole, Rect.mem_set_unit]
  exact Iff.rfl

/-- The tiles cover the result: entry (r, c) is in the tile of the point with block coordinates (r / 256, c / 512). -/
theorem tiles_cover (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  obtain ⟨t, ht⟩ := every_tile ⟨(i 0).val / 256, by omega⟩ ⟨(i 1).val / 512, by omega⟩
  have q0 : win0_2.index t (0 : Fin 2) = (i 0).val / 256 := congrFun ht 0
  have q1 : win0_2.index t (1 : Fin 2) = (i 1).val / 512 := congrFun ht 1
  refine ⟨t, flush0_2 t, ?_⟩
  rw [mem_tile]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 512 ≤ (i 1).val ∧ (i 1).val < win0_2.index t (1 : Fin 2) * 512 + 512; omega

/-- After the run the result array is the product of the two argument arrays as launched. -/
theorem result_eq_product (c : Dev nD) :
    (dats m 0 c).arrAt 2 cfg0.N
      = product (m ((c : Thread nD τ).loc main_arg0)) (m ((c : Thread nD τ).loc main_arg1)) :=
  (dats m 0 c).arrAt_eq_of_cover 2 (product (V m c main_arg0) (V m c main_arg1))
    (fun t _ => flushed_eq_product m c t) tiles_cover

/-- The kernel's run with its result named: every weakly fair execution terminates with the result array at the
    product of the argument arrays, and the argument arrays unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq_product m c), (h c).2⟩)
    (Value.run_blocks m ρ)

end Cert.KernelIdeal.Tiles

end
-- ==== Proof.lean ====
/-
  A batch of 2048 state vectors of length 4096 is multiplied by a 4096 × 4096 gate matrix.

  The kernel tiles the result into 8 × 8 tiles of 256 × 512 entries; for each tile it multiplies the 256 full rows of
  the states by the 512 full columns of the matrix (the whole contraction of length 4096 at once, after a change of
  both blocks to bf16, into a zero accumulator). The reference is the one matrix product of the whole arrays.

  Over the extended reals a change of float format is the identity, and both programs give entry (r, c) of the result
  as the same finite sum, over the contraction position k, of state(r, k) · matrix(k, c):
    * `Product.lean` states that sum as one function of the two arrays;
    * `ReferenceProduct.lean`: the reference's `dot_general` read at an entry is that sum;
    * `TileProduct.lean`: an entry of the tile the kernel's body stores is the sum over its two loaded blocks;
    * `Tiles.lean`: a grid point's blocks are the rows and columns its tile needs, and the 64 tiles cover the result,
      so the kernel's result array is the product.
  The two sums are term for term the same, so nothing about the entries is needed: the precondition (finite inputs) is
  never opened. The three runs (termination, no fault, arguments unchanged) are the generated ones; the kernel as
  printed and its reading over the extended reals are the same text, so there is nothing to preserve.
-/
import proofs.«150564_j31662498906411_1_alg».proof.Defs
import proofs.«150564_j31662498906411_1_alg».proof.Proof.Gen.Kernel
import proofs.«150564_j31662498906411_1_alg».proof.Proof.Gen.Kernel.Frame
import proofs.«150564_j31662498906411_1_alg».proof.Proof.Gen.KernelIdeal
import proofs.«150564_j31662498906411_1_alg».proof.Proof.Gen.KernelIdeal.Frame
import proofs.«150564_j31662498906411_1_alg».proof.Proof.Gen.KernelIdeal.Value
import proofs.«150564_j31662498906411_1_alg».proof.Proof.Gen.ReferenceIdeal
import proofs.«150564_j31662498906411_1_alg».proof.Proof.Gen.ReferenceIdeal.Run
import proofs.«150564_j31662498906411_1_alg».proof.Proof.Gen.ReferenceIdeal.Read
import proofs.«150564_j31662498906411_1_alg».proof.Proof.Gen.Pre_finite_inputs
import proofs.«150564_j31662498906411_1_alg».proof.Proof.Product
import proofs.«150564_j31662498906411_1_alg».proof.Proof.ReferenceProduct
import proofs.«150564_j31662498906411_1_alg».proof.Proof.Tiles

noncomputable section

namespace Cert.Proof

open Idealize.ShloMosaic Idealize.ShloMosaic.TcCoe Idealize.SL.Sem Cert.StateProduct

/-- The kernel as printed runs and leaves its arguments unchanged. -/
theorem frame_kernel : Cert.frame_Kernel := fun m ρ _ => Cert.Kernel.Gen.frame m ρ

/-- The kernel read over the extended reals runs and leaves its arguments unchanged. -/
theorem frame_kernel_ideal : Cert.frame_KernelIdeal := fun m ρ _ => Cert.KernelIdeal.Gen.frame m ρ

/-- The reference runs and leaves its arguments unchanged: its run, with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories agreeing on the two arguments, the kernel's result array and the reference's both end at the product
    of the states with the matrix: the kernel's tile by tile, the reference's by its one `dot_general`. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefProduct.reference_eq_product,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
